-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_c_0 : IVec S_ 32 := constantI S_ 32 1#32
  let main_v4 : IVec S33554432 32 := broadcastInDim S33554432 ![] bcast_S_S33554432 main_c_0
  let main_v5 : IVec S33554432 1 := cmpi .eq main_arg1 main_v4
  let main_c_1 : IVec S_ 32 := constantI S_ 32 4294967295#32
  let main_v6 : IVec S33554432 32 := broadcastInDim S33554432 ![] bcast_S_S33554432 main_c_1
  let main_v7 : IVec S33554432 1 := cmpi .eq main_arg1 main_v6
  let main_v8 : IVec S33554432 1 := ori main_v5 main_v7
  let main_c_2 : IVec S_ 1 := constantI S_ 1 1#1
  let main_v9 : IVec S_ 1 := (fun x v => Host.reduce IntOp.andi x v reducesTo_S33554432_S_d0 h_S_) main_v8 main_c_2
  let main_v10 : IVec S_ 1 := andi main_v3 main_v9
  main_v10
-- ==== Kernel.lean ====
abbrev S33554432 : Shape := ⟨1, ![33554432]⟩
abbrev S262144x128 : Shape := ⟨2, ![262144, 128]⟩
abbrev S2x1x128 : Shape := ⟨3, ![2, 1, 128]⟩
abbrev S8192x128 : Shape := ⟨2, ![8192, 128]⟩
abbrev S1x1x128 : Shape := ⟨3, ![1, 1, 128]⟩
abbrev S128 : Shape := ⟨1, ![128]⟩
abbrev S1x128 : Shape := ⟨2, ![1, 128]⟩
abbrev S_ : Shape := ⟨0, ![]⟩
abbrev S1 : Shape := ⟨1, ![1]⟩

abbrev nBuf : Space → Nat
  | .hbm => 10
  | .vmem => 7
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S2x1x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S262144x128 : S33554432.ShapeCasts S262144x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S128 : S8192x128.Reduces [0] S128
  shapeCasts_S128_S1x128 : S128.ShapeCasts S1x128
  shapeCasts_S1x128_S1x1x128 : S1x128.ShapeCasts S1x1x128
  reducesTo_S2x1x128_S_d0_1_2 : S2x1x128.ReducesTo [0, 1, 2] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .i32 = 32 ∨ (Rect.block (s := S262144x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩
abbrev S1 : Shape := ⟨1, ![1]⟩

abbrev nBuf : Space → Nat
  | .hbm => 29
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S_, .f32⟩
  | .hbm, ⟨3, _⟩ => ⟨S33554432, .f32⟩
  | .hbm, ⟨4, _⟩ => ⟨S33554432, .f32⟩
  | .hbm, ⟨5, _⟩ => ⟨S_, .f32⟩
  | .hbm, ⟨6, _⟩ => ⟨S33554432, .f32⟩
  | .hbm, ⟨7, _⟩ => ⟨S33554432, .f32⟩
  | .hbm, ⟨8, _⟩ => ⟨S_, .f32⟩
  | .hbm, ⟨9, _⟩ => ⟨S33554432, .f32⟩
  | .hbm, ⟨10, _⟩ => ⟨S33554432, .f32⟩
  | .hbm, ⟨11, _⟩ => ⟨S_, .f32⟩
  | .hbm, ⟨12, _⟩ => ⟨S33554432, .f32⟩
  | .hbm, ⟨13, _⟩ => ⟨S33554432, .f32⟩
  | .hbm, ⟨14, _⟩ => ⟨S_, .i32⟩
  | .hbm, ⟨15, _⟩ => ⟨S33554432, .i32⟩
  | .hbm, ⟨16, _⟩ => ⟨S33554432, .i1⟩
  | .hbm, ⟨17, _⟩ => ⟨S_, .i32⟩
  | .hbm, ⟨18, _⟩ => ⟨S33554432, .i32⟩
  | .hbm, ⟨19, _⟩ => ⟨S33554432, .i1⟩
  | .hbm, ⟨20, _⟩ => ⟨S_, .f32⟩
  | .hbm, ⟨21, _⟩ => ⟨S33554432, .f32⟩
  | .hbm, ⟨22, _⟩ => ⟨S33554432, .f32⟩
  | .hbm, ⟨23, _⟩ => ⟨S33554432, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel
  shapeCasts_S_S1 : S_.ShapeCasts S1

variable [Facts₀]

class Facts : Prop extends Facts₀ where

variable [Facts]
-- ==== Proof.Pieces.lean ====
/-
  What each case of the kernel's body leaves behind, as a value.

  The body has one store that every grid point executes: the scratch accumulator receives
  `accumulator + (column sums of the point's block of terms)`, the store's payload `k0_pay2`.  At the first
  point of a half of the rows the accumulator was just overwritten by zeros (`k0_pay1`), so the payload is taken
  at the zeros; at the other points it is taken at what the point before left.  At the last point of a half the
  output block receives the accumulator as just stored, hence the same payload.  Every buffer involved is read
  and written whole, through rectangles with zero offsets.
-/
import proofs.«143609_j56298431316074_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a rank-three rectangle, as a constant function. -/
theorem hz3 : (![0, 0, 0] : Fin 3 → Nat) = fun _ => 0 := funext fun a => by fin_cases a <;> rfl
/-- The zero offsets of a rank-two rectangle, as a constant function. -/
theorem hz2 : (![0, 0] : Fin 2 → Nat) = fun _ => 0 := funext fun a => by fin_cases a <;> rfl

/-- A point that neither starts nor ends a half: the accumulator goes from `xs0` to the payload at `xs0`. -/
theorem scratch_B (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (hc0 : ¬cond0_0 i) (hc1 : ¬cond0_1 i)
    (x0 : Vec F S8192x128 .f32) (x1 : Vec F S8192x128 .i32) (xs0 : Vec F S1x1x128 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz3]
  simp only [View.readAt_eq_ld, harg2.read_unread, harg3.read_unread, harg5.read_unread,
    View.ld_unit_zero (S := S8192x128) hz2, View.ld_unit_zero (S := S1x1x128) hz3]

/-- The last point of a half: the accumulator goes from `xs0` to the payload at `xs0` … -/
theorem scratch_C (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (hc0 : ¬cond0_0 i) (hc1 : cond0_1 i)
    (x0 : Vec F S8192x128 .f32) (x1 : Vec F S8192x128 .i32) (xs0 : Vec F S1x1x128 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread,
    View.ld_unit_zero (S := S8192x128) hz2, View.ld_unit_zero (S := S1x1x128) hz3]

/-- … and the output block receives the accumulator read back after that store: the same payload. -/
theorem out_C (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (hc0 : ¬cond0_0 i) (hc1 : cond0_1 i)
    (x0 : Vec F S8192x128 .f32) (x1 : Vec F S8192x128 .i32) (xs0 : Vec F S1x1x128 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x1x128) _ hz3]
  simp only [View.readAt_eq_ld, harg2.read_unread, harg3.read_unread, harg5.read_unread,
    View.ld_unit_zero (S := S8192x128) hz2, View.ld_unit_zero (S := S1x1x128) hz3]

/-- The first point of a half: the accumulator is zeroed, read back, and left at the payload at the zeros. -/
theorem scratch_A (c : Dev nD) (i : grid0.Coords) (arg2 : Memref sig .tc .vmem S8192x128 .f32) (harg2 : arg2.IsWhole) (arg3 : Memref sig .tc .vmem S8192x128 .i32) (harg3 : arg3.IsWhole) (arg4 : Memref sig .tc .vmem S1x1x128 .f32) (harg4 : arg4.IsWhole) (arg5 : Memref sig .tc .vmem S1x1x128 .f32) (harg5 : arg5.IsWhole) (hc0 : cond0_0 i) (hc1 : ¬cond0_1 i)
    (x0 : Vec F S8192x128 .f32) (x1 : Vec F S8192x128 .i32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread,
    View.ld_unit_zero (S := S8192x128) hz2]

end Cert.KernelIdeal.Pieces

end
-- ==== Proof.Accum.lean ====
/-
  The scratch accumulator, grid point by grid point.

  The 32 grid points run in order; point `t` belongs to the half `t / 16` of the rows and is its `(t % 16)`-th
  block.  After the first point of a half the accumulator holds the accumulating store's payload taken at zeros;
  after any other point it holds the payload taken at what the point before left; and at the last point of a half
  the output block is given those same contents.  Each statement is the generated case equation of the
  point-by-point contents composed with the value of that case's pieces.
-/
import proofs.«143609_j56298431316074_2_alg».proof.Proof.Pieces

noncomputable section

open Idealize.ShloMosaic Idealize.ShloMosaic.TcCoe Idealize.SL.Sem

namespace Cert.KernelIdeal.Accum

open Cert.KernelIdeal Cert.KernelIdeal.Gen Cert.KernelIdeal.Pieces

variable {F : FTy → Type} [FloatOps F]
variable (m : (ℓ : Loc nD τ sig) → Buf (Elt F) ℓ)

/-- After the first point of a half: the payload at the point's two input blocks and the zeros. -/
theorem scratch_first (c : Dev nD) (t : Fin cfg0.N) (h0 : t.val % 16 = 0) (h1 : ¬t.val % 16 = 15) :
    (outsAt0 m c t.val t.isLt).2 = k0_pay2 (iblk m c 0 t) (iblk m c 1 t) (k0_pay1 (F := F)) :=
  by
  rw [outsAt0_A m c t h0 h1]
  dsimp only
  exact scratch_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- After a point strictly inside a half: the payload at the point's blocks and what the point before left. -/
theorem scratch_mid (c : Dev nD) (t : Fin cfg0.N) (h0 : ¬t.val % 16 = 0) (h1 : ¬t.val % 16 = 15) :
    (outsAt0 m c t.val t.isLt).2
      = k0_pay2 (iblk m c 0 t) (iblk m c 1 t) (outsAt0 m c (t.val - 1) (Nat.lt_of_le_of_lt (Nat.sub_le _ _) t.isLt)).2 :=
  by
  rw [outsAt0_B m c t h0 h1]
  dsimp only
  exact scratch_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- After the last point of a half: the same, … -/
theorem scratch_last (c : Dev nD) (t : Fin cfg0.N) (h0 : ¬t.val % 16 = 0) (h1 : t.val % 16 = 15) :
    (outsAt0 m c t.val t.isLt).2
      = k0_pay2 (iblk m c 0 t) (iblk m c 1 t) (outsAt0 m c (t.val - 1) (Nat.lt_of_le_of_lt (Nat.sub_le _ _) t.isLt)).2 :=
  by
  rw [outsAt0_C m c t h0 h1]
  dsimp only
  exact scratch_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2

/-- … and the output block holds what the accumulator holds. -/
theorem out_last (c : Dev nD) (t : Fin cfg0.N) (h0 : ¬t.val % 16 = 0) (h1 : t.val % 16 = 15) :
    (outsAt0 m c t.val t.isLt).1 = (outsAt0 m c t.val t.isLt).2 :=
  by
  rw [outsAt0_C m c t h0 h1]
  dsimp only
  exact (out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (scratch_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2).symm

end Cert.KernelIdeal.Accum

end
-- ==== Proof.HingeTerm.lean ====
/-
  The hinge term of one score against one label, on the extended reals.

  The kernel forms, for a score `d` and an integer label `t`, the term `min 0 (t · d − 1)`, the label read as a
  real number.  The reference forms `min 0 (d − 1)` where the label is `+1`, `min 0 (−1 − d)` where it is `−1`,
  and `0` for every other label.  For a label that is `+1` or `−1` the two terms are the same extended real:
  `1 · d = d`, and `(−1) · d − 1 = −d + (−1) = −1 − d` by commutativity of addition alone, so no finiteness of
  the score is used.
-/
import Idealize.ShloMosaic.PureOps.Ideal
import Idealize.ShloMosaic.Lib.ValueIdx
import Idealize.ShloMosaic.Lib.Affine

noncomputable section

namespace Cert.Hinge

open Idealize.ShloMosaic

/-- The pattern of `1.0` denotes the real number one. -/
theorem ofBits_one : Ideal.ofBits .f32 0x3F800000#32 = 1 := by
  simp [Ideal.ofBits, Ideal.ieee, -EReal.coe_mul]; norm_num

/-- The pattern of `-1.0` denotes minus one. -/
theorem ofBits_neg_one : Ideal.ofBits .f32 0xBF800000#32 = -1 := by
  simp [Ideal.ofBits, Ideal.ieee, -EReal.coe_mul]; norm_num

/-- The kernel's term: `min 0 (t · d − 1)`, the label read signed. -/
def kerTerm (d : EReal) (t : BitVec 32) : EReal :=
  min (Ideal.ofBits .f32 0x00000000#32) (((t.toInt : ℝ) : EReal) * d - Ideal.ofBits .f32 0x3F800000#32)

/-- The reference's term: by cases on the label. -/
def refTerm (d : EReal) (t : BitVec 32) : EReal :=
  Scalar.select (IntOp.cmpi .eq t 1#32)
    (min (Ideal.ofBits .f32 0x00000000#32) (d - Ideal.ofBits .f32 0x3F800000#32))
    (Scalar.select (IntOp.cmpi .eq t 4294967295#32)
      (min (Ideal.ofBits .f32 0x00000000#32) (Ideal.ofBits .f32 0xBF800000#32 - d))
      (Ideal.ofBits .f32 0x00000000#32))

/-- At the label `+1` both terms are `min 0 (d − 1)`. -/
theorem refTerm_pos (d : EReal) : refTerm d 1#32 = kerTerm d 1#32 := by
  unfold refTerm kerTerm
  have h1 : IntOp.cmpi .eq (1#32 : BitVec 32) 1#32 = 1#1 := IntOp.cmpi_eq.2 rfl
  have h2 : ((1#32 : BitVec 32).toInt : ℝ) = 1 := by
    have : (1#32 : BitVec 32).toInt = 1 := by decide
    rw [this]; norm_num
  rw [h1, ValueIdx.select_one, h2, EReal.coe_one, one_mul]

/-- At the label `−1` both terms are `min 0 (−1 − d)`: `(−1) · d − 1 = −d + (−1)`. -/
theorem refTerm_neg (d : EReal) : refTerm d 4294967295#32 = kerTerm d 4294967295#32 := by
  unfold refTerm kerTerm
  have h0 : ¬ IntOp.cmpi .eq (4294967295#32 : BitVec 32) 1#32 = 1#1 := fun h => by
    have := IntOp.cmpi_eq.1 h; revert this; decide
  have h1 : IntOp.cmpi .eq (4294967295#32 : BitVec 32) 4294967295#32 = 1#1 := IntOp.cmpi_eq.2 rfl
  have h2 : ((4294967295#32 : BitVec 32).toInt : ℝ) = -1 := by
    have : (4294967295#32 : BitVec 32).toInt = -1 := by decide
    rw [this]; norm_num
  rw [ValueIdx.eq_zero_of_ne_one h0, ValueIdx.select_zero, h1, ValueIdx.select_one, h2, ofBits_one, ofBits_neg_one,
    EReal.coe_neg, EReal.coe_one, neg_mul, one_mul, sub_eq_add_neg, sub_eq_add_neg, add_comm]

/-- So for a label that is `+1` or `−1` the reference's term is the kernel's. -/
theorem refTerm_eq_kerTerm (d : EReal) (t : BitVec 32) (ht : t = 1#32 ∨ t = 4294967295#32) :
    refTerm d t = kerTerm d t := by
  rcases ht with rfl | rfl
  · exact refTerm_pos d
  · exact refTerm_neg d

/-- The kernel's term at position `n` of the two flat arrays of 2^25 scores and labels (zero past the end, where
    nothing is ever read). -/
def flat (D : (⟨1, ![33554432]⟩ : Shape).Idx → EReal) (T : (⟨1, ![33554432]⟩ : Shape).Idx → BitVec 32) (n : ℕ) : EReal :=
  if h : n < 33554432 then kerTerm (D (ValueIdx.ix1 ⟨n, h⟩)) (T (ValueIdx.ix1 ⟨n, h⟩)) else 0

theorem flat_of_lt (D : (⟨1, ![33554432]⟩ : Shape).Idx → EReal) (T : (⟨1, ![33554432]⟩ : Shape).Idx → BitVec 32)
    (n : ℕ) (h : n < 33554432) : flat D T n = kerTerm (D (ValueIdx.ix1 ⟨n, h⟩)) (T (ValueIdx.ix1 ⟨n, h⟩)) :=
  dif_pos h

end Cert.Hinge

end
-- ==== Proof.Payload.lean ====
/-
  The body's one accumulating store, read at an index on the extended reals.

  The payload `k0_pay2 x0 x1 acc` is `acc + (column sums of the block of terms)`, the block of terms being, at
  row `r` and lane `l`, the kernel's hinge term of the score `x0 (r, l)` against the label `x1 (r, l)`.  The column
  sums are a reduction along the rows of the [8192, 128] block, re-laid from [128] to [1, 128] to [1, 1, 128];
  so at `(0, 0, l)` the payload is `acc (0, 0, l)` plus the sum over the 8192 rows `r` of the term at `(r, l)`.
-/
import proofs.«143609_j56298431316074_2_alg».proof.Proof.Gen.KernelIdeal.Skeleton
import proofs.«143609_j56298431316074_2_alg».proof.Proof.HingeTerm
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen Cert.Hinge

/-- The reduced index `l` with the row `r` put back is `(r, l)`. -/
theorem lift_row (h : S8192x128.Reduces [0] S128) (l : Fin 128) (r : Fin (S8192x128.size 0)) :
    h.lift (ix1 l) r = ix2 (⟨r.val, r.isLt⟩ : Fin 8192) l := by
  funext c; apply Fin.ext
  fin_cases c <;> rfl

/-- The sum along the rows of an [8192, 128] block, at lane `l`. -/
theorem colsum_apply (src : FVec Ideal S8192x128 .f32) (h : S8192x128.Reduces [0] S128) (hφ : FKind.Formats .f32)
    (hacc : (0x00000000#32 : BitVec 32) = FKind.add.neutral .f32 hφ) (l : Fin 128) :
    multiReduction .add [0] S128 src 0x00000000#32 h hφ hacc (ix1 l) = ∑ r : Fin 8192, src (ix2 r l) := by
  refine (Ideal.multiReduction_add_single src 0x00000000#32 h hφ hacc (ix1 l)).trans ?_
  exact Finset.sum_congr rfl fun r _ => congrArg src (lift_row h l r)

/-- The accumulator plus a [128] row re-laid to [1, 1, 128], at `(u, v, l)`. -/
theorem accum_apply (acc : FVec Ideal S1x1x128 .f32) (w : FVec Ideal S128 .f32) (h1 : S128.ShapeCasts S1x128)
    (h2 : S1x128.ShapeCasts S1x1x128) (h3 : S1x1x128.ShapeCasts S1x1x128) (u v : Fin 1) (l : Fin 128) :
    shapeCast S1x1x128 (addf acc (shapeCast S1x1x128 (shapeCast S1x128 w h1) h2)) h3 (ix3 u v l)
      = acc (ix3 u v l) + w (ix1 l) := by
  rw [shapeCast_self]
  show acc (ix3 u v l) + shapeCast S1x1x128 (shapeCast S1x128 w h1) h2 (ix3 u v l) = _
  rw [shapeCast_ab_1ab_apply, shapeCast_a_1a_apply]

/-- The block of terms at `(r, l)`: the kernel's hinge term of the score against the label there. -/
theorem term_apply (y0 : FVec Ideal S8192x128 .f32) (y1 : IVec S8192x128 32) (r : Fin 8192) (l : Fin 128) :
    (minimumf (broadcast S8192x128 (Scalar.ofBits .f32 0x00000000#32))
        (subf (mulf (sitofp .f32 y1) y0) (broadcast S8192x128 (Scalar.ofBits .f32 0x3F800000#32)))
      : FVec Ideal S8192x128 .f32) (ix2 r l) = kerTerm (y0 (ix2 r l)) (y1 (ix2 r l)) := rfl

/-- The payload at `(u, v, l)`: the accumulator there plus the sum over the rows of the terms at lane `l`. -/
theorem pay2_apply (x0 : Vec Ideal S8192x128 .f32) (x1 : Vec Ideal S8192x128 .i32) (acc : Vec Ideal S1x1x128 .f32)
    (u v : Fin 1) (l : Fin 128) :
    k0_pay2 (F := Ideal) x0 x1 acc (ix3 u v l)
      = acc (ix3 u v l) + ∑ r : Fin 8192, kerTerm (x0 (ix2 r l)) (x1 (ix2 r l)) := by
  unfold k0_pay2
  refine (accum_apply acc _ _ _ _ u v l).trans ?_
  refine congrArg (fun z => acc (ix3 u v l) + z) ?_
  refine (colsum_apply _ _ _ _ l).trans ?_
  refine Finset.sum_congr rfl fun r _ => ?_
  refine (term_apply _ _ r l).trans ?_
  rw [shapeCast_self, shapeCast_self]

/-- The zeros the first point of a half stores, at any index. -/
theorem pay1_apply (j : S1x1x128.Idx) : k0_pay1 (F := Ideal) j = 0 := by
  unfold k0_pay1
  rw [shapeCast_self]
  exact Ideal.ofBits_zero_f32

end Cert.KernelIdeal.Payload

end
-- ==== Proof.Blocks.lean ====
/-
  The two input blocks of a grid point, read back to the flat argument arrays.

  Before the kernel runs, the flat arrays of 2^25 scores and labels are re-laid as [262144, 128]: position
  `R · 128 + l` of the flat array is row `R`, lane `l`.  Grid point `t` is handed rows `t · 8192 … t · 8192 + 8191`
  of both (its block index is `(t, 0)`, a block being [8192, 128]).  So the kernel's hinge term at row `r`, lane `l`
  of point `t`'s blocks is the term at flat position `(t · 8192 + r) · 128 + l`.
-/
import proofs.«143609_j56298431316074_2_alg».proof.Proof.Gen.KernelIdeal.Frame.Runs
import proofs.«143609_j56298431316074_2_alg».proof.Proof.HingeTerm
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen Cert.Hinge

variable {F : FTy → Type} [FloatOps F]
variable (m : (ℓ : Loc nD τ sig) → Buf (Elt F) ℓ)

/-- The array of scores as the kernel finds it: the flat argument re-laid as [262144, 128]. -/
theorem V_scores (c : Dev nD) :
    (V m c main_v0 : S262144x128.Idx → Elt F .f32)
      = shapeCast S262144x128 (m ((c : Thread nD τ).loc main_arg0)) shapeCasts_S33554432_S262144x128 := by
  show StableHlo.after hostOps0 (fun b => m (c, b)) (Proc.devRef .tc main_v0) = _
  after_results
  rfl

/-- The array of labels as the kernel finds it: the flat argument re-laid as [262144, 128]. -/
theorem V_labels (c : Dev nD) :
    (V m c main_v1 : S262144x128.Idx → Elt F .i32)
      = shapeCast S262144x128 (m ((c : Thread nD τ).loc main_arg1)) shapeCasts_S33554432_S262144x128 := by
  show StableHlo.after hostOps0 (fun b => m (c, b)) (Proc.devRef .tc main_v1) = _
  after_results
  rfl

/-- Point `t`'s block of scores has block index `(t, 0)`, … -/
theorem idx_scores : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- … and so has its block of labels. -/
theorem idx_labels : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row `r`, lane `l` of point `t`'s block of scores is row `t · 8192 + r`, lane `l` of the array. -/
theorem scores_apply (c : Dev nD) (t : Fin cfg0.N) (r : Fin 8192) (l : Fin 128) (R : Fin 262144)
    (hR : R.val = t.val * 8192 + r.val) :
    (iblk m c 0 t : Vec F S8192x128 .f32) (ix2 r l) = V m c main_v0 (ix2 R l) := by
  show V m c main_v0 (((cfg0.win 0).blk t).view.emb (ix2 r l)) = V m c main_v0 (ix2 R l)
  refine congrArg (V m c main_v0) (funext fun a => Fin.ext ?_)
  match a with
  | ⟨0, _⟩ =>
    show win0_0.index t 0 * 8192 + 1 * r.val = R.val
    rw [(idx_scores t).1, hR]; omega
  | ⟨1, _⟩ =>
    show win0_0.index t 1 * 128 + 1 * l.val = l.val
    rw [(idx_scores t).2]; omega

/-- Row `r`, lane `l` of point `t`'s block of labels is row `t · 8192 + r`, lane `l` of the array. -/
theorem labels_apply (c : Dev nD) (t : Fin cfg0.N) (r : Fin 8192) (l : Fin 128) (R : Fin 262144)
    (hR : R.val = t.val * 8192 + r.val) :
    (iblk m c 1 t : Vec F S8192x128 .i32) (ix2 r l) = V m c main_v1 (ix2 R l) := by
  show V m c main_v1 (((cfg0.win 1).blk t).view.emb (ix2 r l)) = V m c main_v1 (ix2 R l)
  refine congrArg (V m c main_v1) (funext fun a => Fin.ext ?_)
  match a with
  | ⟨0, _⟩ =>
    show win0_1.index t 0 * 8192 + 1 * r.val = R.val
    rw [(idx_labels t).1, hR]; omega
  | ⟨1, _⟩ =>
    show win0_1.index t 1 * 128 + 1 * l.val = l.val
    rw [(idx_labels t).2]; omega

/-- A flat array re-laid as [262144, 128], at row `R` and lane `l`, is the flat array at `R · 128 + l`. -/
theorem relaid_apply {α : Type} (x : S33554432.Idx → α) (R : Fin 262144) (l : Fin 128) (n : Fin 33554432)
    (hn : n.val = R.val * 128 + l.val) :
    shapeCast S262144x128 x shapeCasts_S33554432_S262144x128 (ix2 R l) = x (ix1 n) :=
  shapeCast_apply x shapeCasts_S33554432_S262144x128 (ix2 R l) (ix1 n) (by
    rw [Shape.rowMajor_val_one, Shape.rowMajor_val_two]
    show n.val = R.val * 128 + l.val
    exact hn)

end Cert.KernelIdeal.Blocks

/-! ## On the extended reals: a block's term is the flat arrays' term -/

namespace Cert.KernelIdeal.Blocks

open Cert.KernelIdeal Cert.KernelIdeal.Gen Cert.Hinge

variable (m : (ℓ : Loc nD τ sig) → Buf (Elt Ideal) ℓ)

/-- The kernel's hinge term at row `r`, lane `l` of the blocks of point `n` is the term at flat position
    `(n · 8192 + r) · 128 + l`. -/
theorem blockTerm (c : Dev nD) (n : ℕ) (h : n < cfg0.N) (r : Fin 8192) (l : Fin 128) :
    kerTerm ((iblk m c 0 ⟨n, h⟩ : Vec Ideal S8192x128 .f32) (ix2 r l)) ((iblk m c 1 ⟨n, h⟩ : Vec Ideal S8192x128 .i32) (ix2 r l))
      = flat (m ((c : Thread nD τ).loc main_arg0)) (m ((c : Thread nD τ).loc main_arg1)) ((n * 8192 + r.val) * 128 + l.val) := by
  have hN : n < 32 := lt_of_lt_of_eq h (show cfg0.N = 32 from N_0)
  have hr := r.isLt
  have hl := l.isLt
  have hlt : (n * 8192 + r.val) * 128 + l.val < 33554432 := by omega
  have hR : n * 8192 + r.val < 262144 := by omega
  have e0 : (iblk m c 0 ⟨n, h⟩ : Vec Ideal S8192x128 .f32) (ix2 r l)
      = m ((c : Thread nD τ).loc main_arg0) (ix1 ⟨(n * 8192 + r.val) * 128 + l.val, hlt⟩) :=
    (scores_apply m c ⟨n, h⟩ r l ⟨n * 8192 + r.val, hR⟩ rfl).trans
      ((congrFun (V_scores m c) (ix2 ⟨n * 8192 + r.val, hR⟩ l)).trans
        (relaid_apply (m ((c : Thread nD τ).loc main_arg0)) ⟨n * 8192 + r.val, hR⟩ l ⟨(n * 8192 + r.val) * 128 + l.val, hlt⟩ rfl))
  have e1 : (iblk m c 1 ⟨n, h⟩ : Vec Ideal S8192x128 .i32) (ix2 r l)
      = m ((c : Thread nD τ).loc main_arg1) (ix1 ⟨(n * 8192 + r.val) * 128 + l.val, hlt⟩) :=
    (labels_apply m c ⟨n, h⟩ r l ⟨n * 8192 + r.val, hR⟩ rfl).trans
      ((congrFun (V_labels m c) (ix2 ⟨n * 8192 + r.val, hR⟩ l)).trans
        (relaid_apply (m ((c : Thread nD τ).loc main_arg1)) ⟨n * 8192 + r.val, hR⟩ l ⟨(n * 8192 + r.val) * 128 + l.val, hlt⟩ rfl))
  rw [flat_of_lt _ _ _ hlt]
  exact congrArg₂ kerTerm e0 e1

end Cert.KernelIdeal.Blocks

end
-- ==== Proof.Running.lean ====
/-
  The accumulator after grid point `n`, as a sum of terms of the flat arrays.

  Point `n` is the `(n % 16)`-th block of the half `n / 16`, whose first point is `n − n % 16`.  By induction on
  the point, after point `n` the accumulator holds, at lane `l`, the sum over the blocks `i ≤ n % 16` of that half
  and over the rows `r` of a block of the kernel's hinge term at flat position
  `((n − n % 16 + i) · 8192 + r) · 128 + l`: the first point of a half adds its block's column sums to zeros,
  every later point adds its own to what the point before left.  After the last point of a half the output block
  holds the same.
-/
import proofs.«143609_j56298431316074_2_alg».proof.Proof.Accum
import proofs.«143609_j56298431316074_2_alg».proof.Proof.Payload
import proofs.«143609_j56298431316074_2_alg».proof.Proof.Blocks

noncomputable section

open Idealize.ShloMosaic Idealize.ShloMosaic.TcCoe Idealize.SL.Sem Idealize.ShloMosaic.ValueIdx

namespace Cert.KernelIdeal.Running

open Cert.KernelIdeal Cert.KernelIdeal.Gen Cert.Hinge Cert.KernelIdeal.Accum Cert.KernelIdeal.Payload
  Cert.KernelIdeal.Blocks

variable (m : (ℓ : Loc nD τ sig) → Buf (Elt Ideal) ℓ)

/-- The sum, over the rows of one block, of the terms at lane `l`: block number `p` of the re-laid arrays. -/
def blockSum (c : Dev nD) (p : ℕ) (l : ℕ) : EReal :=
  ∑ r : Fin 8192, flat (m ((c : Thread nD τ).loc main_arg0)) (m ((c : Thread nD τ).loc main_arg1))
    ((p * 8192 + r.val) * 128 + l)

/-- The column sums of point `n`'s block of terms, at lane `l`. -/
theorem block_colsum (c : Dev nD) (n : ℕ) (h : n < cfg0.N) (l : Fin 128) :
    ∑ r : Fin 8192, kerTerm ((iblk m c 0 ⟨n, h⟩ : Vec Ideal S8192x128 .f32) (ix2 r l))
        ((iblk m c 1 ⟨n, h⟩ : Vec Ideal S8192x128 .i32) (ix2 r l))
      = blockSum m c n l.val :=
  Finset.sum_congr rfl fun r _ => blockTerm m c n h r l

/-- The accumulator after point `n`, at lane `l`. -/
theorem running (c : Dev nD) (n : ℕ) : ∀ (h : n < cfg0.N) (u v : Fin 1) (l : Fin 128),
    (outsAt0 m c n h).2 (ix3 u v l) = ∑ i ∈ Finset.range (n % 16 + 1), blockSum m c (n - n % 16 + i) l.val := by
  induction n with
  | zero =>
    intro h u v l
    have e := congrFun (scratch_first m c ⟨0, h⟩ rfl (by dsimp only; omega)) (ix3 u v l)
    refine e.trans ?_
    refine (pay2_apply (iblk m c 0 ⟨0, h⟩) (iblk m c 1 ⟨0, h⟩) (k0_pay1 (F := Ideal)) u v l).trans ?_
    rw [pay1_apply, zero_add, block_colsum m c 0 h l]
    show _ = ∑ i ∈ Finset.range 1, blockSum m c (0 + i) l.val
    rw [Finset.sum_range_one]
  | succ k ih =>
    intro h u v l
    have hN : k + 1 < 32 := lt_of_lt_of_eq h (show cfg0.N = 32 from N_0)
    by_cases h0 : (k + 1) % 16 = 0
    · have e := congrFun (scratch_first m c ⟨k + 1, h⟩ h0 (by dsimp only; omega)) (ix3 u v l)
      refine e.trans ?_
      refine (pay2_apply (iblk m c 0 ⟨k + 1, h⟩) (iblk m c 1 ⟨k + 1, h⟩) (k0_pay1 (F := Ideal)) u v l).trans ?_
      rw [pay1_apply, zero_add, block_colsum m c (k + 1) h l, h0, Finset.sum_range_one]
      exact congrArg (fun p => blockSum m c p l.val) (by omega)
    · have hprev : ∀ (n' : ℕ) (h' : n' < cfg0.N), n' = k →
          (outsAt0 m c n' h').2 (ix3 u v l) = ∑ i ∈ Finset.range (k % 16 + 1), blockSum m c (k - k % 16 + i) l.val := by
        intro n' h' hk; subst hk; exact ih h' u v l
      have step : (outsAt0 m c (k + 1) h).2
          = k0_pay2 (iblk m c 0 ⟨k + 1, h⟩) (iblk m c 1 ⟨k + 1, h⟩)
              (outsAt0 m c ((⟨k + 1, h⟩ : Fin cfg0.N).val - 1) (Nat.lt_of_le_of_lt (Nat.sub_le _ _) h)).2 := by
        by_cases h1 : (k + 1) % 16 = 15
        · exact scratch_last m c ⟨k + 1, h⟩ h0 h1
        · exact scratch_mid m c ⟨k + 1, h⟩ h0 h1
      refine (congrFun step (ix3 u v l)).trans ?_
      refine (pay2_apply (iblk m c 0 ⟨k + 1, h⟩) (iblk m c 1 ⟨k + 1, h⟩) _ u v l).trans ?_
      rw [hprev _ _ (by dsimp only; omega), block_colsum m c (k + 1) h l]
      have hm : (k + 1) % 16 = k % 16 + 1 := by omega
      have hb : k + 1 - (k + 1) % 16 = k - k % 16 := by omega
      rw [hb, hm, Finset.sum_range_succ (fun i => blockSum m c (k - k % 16 + i) l.val) (k % 16 + 1)]
      exact congrArg (fun p => ∑ i ∈ Finset.range (k % 16 + 1), blockSum m c (k - k % 16 + i) l.val + blockSum m c p l.val)
        (by omega)

/-- After the last point of a half the output block holds, at lane `l`, the whole half's sum. -/
theorem out_at_last (c : Dev nD) (n : ℕ) (h : n < cfg0.N) (h1 : n % 16 = 15) (u v : Fin 1) (l : Fin 128) :
    (outsAt0 m c n h).1 (ix3 u v l) = ∑ i ∈ Finset.range 16, blockSum m c (n - 15 + i) l.val := by
  have e := congrFun (out_last m c ⟨n, h⟩ (by dsimp only; omega) h1) (ix3 u v l)
  refine e.trans ?_
  refine (running m c n h u v l).trans ?_
  rw [h1]

end Cert.KernelIdeal.Running

end
-- ==== Proof.SumSplit.lean ====
/-
  Re-indexing a sum over all 2^25 positions of a flat array.

  A position `n < 33554432` of the flat array is, in exactly one way, `((c · 16 + i) · 8192 + r) · 128 + l` with
  `c < 2` (the half of the rows), `i < 16` (the block of 8192 rows within the half), `r < 8192` (the row within the
  block) and `l < 128` (the lane).  So in a commutative monoid the sum over all positions is the sum over `c` and
  `l` of the sum over `i` and `r`: only commutativity and associativity of addition are used, which hold on the
  extended reals without any finiteness.  Also: a sum over the indices of an array of rank one or three is the
  iterated sum over its coordinates.
-/
import Idealize.ShloMosaic.Lib.ValueIdx

noncomputable section

namespace Cert.Hinge

open Idealize.ShloMosaic Idealize.ShloMosaic.ValueIdx
open scoped BigOperators

/-- A sum over `x < a · b` is the double sum over the quotient `p < a` and the remainder `q < b` of `x` by `b`. -/
theorem sum_fin_mul {M : Type*} [AddCommMonoid M] (a b : ℕ) (F : ℕ → M) :
    ∑ x : Fin (a * b), F x.val = ∑ p : Fin a, ∑ q : Fin b, F (q.val + b * p.val) := by
  rw [← Equiv.sum_comp finProdFinEquiv (fun x : Fin (a * b) => F x.val), Fintype.sum_prod_type]
  rfl

/-- The sum over all positions, by half, lane, block and row. -/
theorem total_split {M : Type*} [AddCommMonoid M] (g : ℕ → M) :
    ∑ n : Fin 33554432, g n.val
      = ∑ c : Fin 2, ∑ l : Fin 128, ∑ i ∈ Finset.range 16, ∑ r : Fin 8192,
          g (((c.val * 16 + i) * 8192 + r.val) * 128 + l.val) := by
  have e1 : ∑ n : Fin 33554432, g n.val = ∑ R : Fin 262144, ∑ l : Fin 128, g (l.val + 128 * R.val) :=
    sum_fin_mul 262144 128 g
  have e2 : ∑ R : Fin 262144, ∑ l : Fin 128, g (l.val + 128 * R.val)
      = ∑ p : Fin 32, ∑ r : Fin 8192, ∑ l : Fin 128, g (l.val + 128 * (r.val + 8192 * p.val)) :=
    sum_fin_mul 32 8192 (fun R => ∑ l : Fin 128, g (l.val + 128 * R))
  have e3 : ∑ p : Fin 32, ∑ r : Fin 8192, ∑ l : Fin 128, g (l.val + 128 * (r.val + 8192 * p.val))
      = ∑ c : Fin 2, ∑ i : Fin 16, ∑ r : Fin 8192, ∑ l : Fin 128, g (l.val + 128 * (r.val + 8192 * (i.val + 16 * c.val))) :=
    sum_fin_mul 2 16 (fun p => ∑ r : Fin 8192, ∑ l : Fin 128, g (l.val + 128 * (r.val + 8192 * p)))
  rw [e1, e2, e3]
  refine Finset.sum_congr rfl fun c _ => ?_
  have e4 : ∀ l : Fin 128, ∑ i ∈ Finset.range 16, ∑ r : Fin 8192, g (((c.val * 16 + i) * 8192 + r.val) * 128 + l.val)
      = ∑ i : Fin 16, ∑ r : Fin 8192, g (((c.val * 16 + i.val) * 8192 + r.val) * 128 + l.val) := fun l =>
    Finset.sum_range (fun i => ∑ r : Fin 8192, g (((c.val * 16 + i) * 8192 + r.val) * 128 + l.val))
  rw [Finset.sum_congr rfl fun l _ => e4 l]
  calc ∑ i : Fin 16, ∑ r : Fin 8192, ∑ l : Fin 128, g (l.val + 128 * (r.val + 8192 * (i.val + 16 * c.val)))
      = ∑ i : Fin 16, ∑ l : Fin 128, ∑ r : Fin 8192, g (l.val + 128 * (r.val + 8192 * (i.val + 16 * c.val))) :=
        Finset.sum_congr rfl fun i _ => Finset.sum_comm
    _ = ∑ l : Fin 128, ∑ i : Fin 16, ∑ r : Fin 8192, g (l.val + 128 * (r.val + 8192 * (i.val + 16 * c.val))) :=
        Finset.sum_comm
    _ = ∑ l : Fin 128, ∑ i : Fin 16, ∑ r : Fin 8192, g (((c.val * 16 + i.val) * 8192 + r.val) * 128 + l.val) :=
        Finset.sum_congr rfl fun l _ => Finset.sum_congr rfl fun i _ => Finset.sum_congr rfl fun r _ =>
          congrArg g (by omega)

/-- The indices of a rank-one array are its one coordinate … -/
def idxEquiv1 {n : Nat} : (⟨1, ![n]⟩ : Shape).Idx ≃ Fin n where
  toFun i := i 0
  invFun a := ix1 a
  left_inv i := (eq_ix1 i).symm
  right_inv _ := rfl

/-- … so a sum over them is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The indices of a rank-three array are the triples of its coordinates … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over them is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Hinge

end
-- ==== Proof.KernelValue.lean ====
/-
  The kernel's result, as a function of the flat argument arrays.

  The kernel's output array is [2, 1, 128]: entry `(a, 0, l)` is written once, after the last grid point of the
  half `a` of the rows, and receives that half's sum, at lane `l`, of the kernel's hinge terms — the sum over the
  16 blocks `i` of the half and the 8192 rows `r` of a block of the term at flat position
  `((a · 16 + i) · 8192 + r) · 128 + l`.  The two write-backs (grid points 15 and 31) cover the array.  After the
  kernel the program sums the whole output array from zero, divides by the number of positions and re-lays the
  scalar as a one-element array.  The sum of the whole output array is the sum of the kernel's term over all 2^25
  positions, each position being counted in exactly one half, lane, block and row.
-/
import proofs.«143609_j56298431316074_2_alg».proof.Proof.Running
import proofs.«143609_j56298431316074_2_alg».proof.Proof.SumSplit
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.HalfSums

open Cert.KernelIdeal Cert.KernelIdeal.Gen Cert.Hinge Cert.KernelIdeal.Running

variable (m : (ℓ : Loc nD τ sig) → Buf (Elt Ideal) ℓ) (ρ : Dev nD → PrngReg)

/-- Entry `j = (a, 0, l)` of the output array: the sum of the half `a` at lane `l`. -/
def halfSum (c : Dev nD) : S2x1x128.Idx → EReal := fun j =>
  ∑ i ∈ Finset.range 16, blockSum m c ((j 0).val * 16 + i) (j 2).val

/-- The same, as contents of the output array. -/
abbrev halves (c : Dev nD) : Buf (Elt Ideal) ((c : Thread nD τ).loc main_v2) := halfSum m c

/-- Grid point `t`'s output block has block index `(t / 16, 0, 0)`. -/
theorem idx_out : ∀ t : Fin cfg0.N, win0_2.index t (0 : Fin 3) = t.val / 16 ∧ win0_2.index t (1 : Fin 3) = 0
    ∧ win0_2.index t (2 : Fin 3) = 0 :=
  (by decide +kernel : ∀ t : Fin grid0.N, win0_2.index t (0 : Fin 3) = t.val / 16 ∧ win0_2.index t (1 : Fin 3) = 0
    ∧ win0_2.index t (2 : Fin 3) = 0)

/-- What a writing point (the last of a half) writes back is its block of the half sums: the half is `t / 16`, whose
    first point is `t − 15`. -/
theorem flushed_eq (c : Dev nD) (t : Fin cfg0.N) (hf : (cfg0.win 2).flush t = true) :
    (dats m 0 c).flushed 2 t = ((cfg0.win 2).blk t).view.read (Elt Ideal) (halves m c) := by
  have h15 : t.val % 16 = 15 := (flush0_2 t).mp hf
  have hN : t.val < 32 := lt_of_lt_of_eq t.isLt (show cfg0.N = 32 from N_0)
  show (cfg0.win 2).cut (grid0.coords t) ((dats m 0 c).after 2 t) = _
  rw [after0_2]
  funext y
  show (outsAt0 m c t.val t.isLt).1 y = halfSum m c (((cfg0.win 2).blk t).view.emb y)
  obtain ⟨u, v, l, rfl⟩ : ∃ (u v : Fin 1) (l : Fin 128), y = ix3 u v l := ⟨y 0, y 1, y 2, eq_ix3 y⟩
  refine (out_at_last m c t.val t.isLt h15 u v l).trans ?_
  have e0 : ((((cfg0.win 2).blk t).view.emb (ix3 u v l)) 0).val = t.val / 16 := by
    show win0_2.index t 0 * 1 + 1 * u.val = t.val / 16
    rw [(idx_out t).1]; omega
  have e2 : ((((cfg0.win 2).blk t).view.emb (ix3 u v l)) 2).val = l.val := by
    show win0_2.index t 2 * 128 + 1 * l.val = l.val
    rw [(idx_out t).2.2]; omega
  show _ = ∑ i ∈ Finset.range 16, blockSum m c (((((cfg0.win 2).blk t).view.emb (ix3 u v l)) 0).val * 16 + i)
    ((((cfg0.win 2).blk t).view.emb (ix3 u v l)) 2).val
  rw [e0, e2]
  exact Finset.sum_congr rfl fun i _ => congrArg (fun p => blockSum m c p l.val) (by omega)

/-- An index of the output array is in point `t`'s block iff each coordinate is in the block's range. -/
theorem mem_blk (t : Fin cfg0.N) (i : S2x1x128.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v2).slice (win0_2.rect t)).set ↔ _
  rw [View.set_slice_whole, Rect.mem_set_unit]
  exact Iff.rfl

/-- Entry `(a, 0, l)` is written back by the last point of the half `a`, grid point `16 · a + 15`. -/
theorem cover (i : S2x1x128.Idx) :
    ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 128 := (i 2).isLt
  have hN : cfg0.N = 32 := N_0
  refine ⟨⟨16 * (i 0).val + 15, by omega⟩, (flush0_2 _).mpr (by dsimp only; omega), ?_⟩
  rw [mem_blk]
  obtain ⟨q0, q1, q2⟩ := idx_out ⟨16 * (i 0).val + 15, by omega⟩
  intro a
  match a with
  | ⟨0, _⟩ =>
    show win0_2.index _ (0 : Fin 3) * 1 ≤ (i 0).val ∧ (i 0).val < win0_2.index _ (0 : Fin 3) * 1 + 1
    rw [q0]; dsimp only; omega
  | ⟨1, _⟩ =>
    show win0_2.index _ (1 : Fin 3) * 1 ≤ (i 1).val ∧ (i 1).val < win0_2.index _ (1 : Fin 3) * 1 + 1
    rw [q1]; omega
  | ⟨2, _⟩ =>
    show win0_2.index _ (2 : Fin 3) * 128 ≤ (i 2).val ∧ (i 2).val < win0_2.index _ (2 : Fin 3) * 128 + 128
    rw [q2]; omega

/-- So the output array ends holding the half sums. -/
theorem final (c : Dev nD) : (dats m 0 c).arrAt 2 cfg0.N = halves m c :=
  (dats m 0 c).arrAt_eq_of_cover 2 (halves m c) (flushed_eq m c) cover

/-- The operations after the kernel — the sum of the output array from zero, the division by the number of
    positions, the re-laying as a one-element array — as one function of the output array. -/
def finish (x : S2x1x128.Idx → EReal) : S1.Idx → EReal :=
  shapeCast S1 (Host.divf (F := Ideal) (Host.reduceAdd (F := Ideal) x (constant (F := Ideal) S_ .f32 0x00000000#32)
    reducesTo_S2x1x128_S_d0_1_2 h_S_) (constant (F := Ideal) S_ .f32 0x4C000000#32)) shapeCasts_S_S1

/-- The program's result buffer after the operations that follow the kernel. -/
theorem tail_value (c : Dev nD) :
    Pipeline.afterTail₀ cfgs (dats m) 0 (V0 m) [hostOps1] c main_v5 = finish (halfSum m c) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v2)
      = halves m c := (Pipeline.withArrays_arr spec0 launch0.win.arr_inj c _ _ 2).trans (final m c)
  rw [e]
  rfl

/-- The sum of the whole output array is the sum of the kernel's term over all positions of the flat arrays. -/
theorem sum_halves (c : Dev nD) :
    ∑ j : S2x1x128.Idx, halfSum m c j
      = ∑ n : Fin 33554432, flat (m ((c : Thread nD τ).loc main_arg0)) (m ((c : Thread nD τ).loc main_arg1)) n.val := by
  rw [sum_idx3, total_split]
  refine Finset.sum_congr rfl fun a _ => ?_
  rw [Fin.sum_univ_one]
  rfl

/-- The sum of the output array from zero, at its one index: zero plus the sum over every entry. -/
theorem reduce_apply (x : S2x1x128.Idx → EReal) (i : S_.Idx) :
    Host.reduceAdd (F := Ideal) x (constant (F := Ideal) S_ .f32 0x00000000#32) reducesTo_S2x1x128_S_d0_1_2 h_S_ i
      = (constant (F := Ideal) S_ .f32 0x00000000#32) (Shape.Idx.first h_S_) + ∑ j : S2x1x128.Idx, x j := by
  simp only [Host.reduceAdd, Ideal.hostReduceAdd_def]
  exact Ideal.hostReduceAdd_total reducesTo_S2x1x128_S_d0_1_2 (fun b => b.elim0) x _ i

/-- The run, read: the result buffer at the finish of the half sums, the arguments unchanged. -/
theorem run : θ_run defs (onTc (τ := τ) (main (F := Ideal))) ⟨m, fun _ => 0, ρ⟩ fun r => ∀ c : Dev nD,
      r.2.mem ((c : Thread nD τ).loc main_v5) = finish (halfSum m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v5 (Pipeline.mem_restRefs_of main_v5 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.HalfSums

end
-- ==== Proof.RefValue.lean ====
/-
  The reference's sum, term by term.

  The reference forms, at every position `j` of the flat arrays, its hinge term of the score at `j` against the
  label at `j` (two comparisons of the label and two selections), and sums all 2^25 of them from zero.  Where every
  label is `+1` or `−1` each of these is the kernel's term, so the reference's sum is the sum over all positions
  of the kernel's term.
-/
import proofs.«143609_j56298431316074_2_alg».proof.Proof.Gen.ReferenceIdeal.Read
import proofs.«143609_j56298431316074_2_alg».proof.Proof.HingeTerm
import proofs.«143609_j56298431316074_2_alg».proof.Proof.SumSplit

noncomputable section

open Idealize.ShloMosaic Idealize.ShloMosaic.ValueIdx

namespace Cert.ReferenceIdeal.RefValue

open Cert.ReferenceIdeal Cert.ReferenceIdeal.Gen Cert.ReferenceIdeal.Read Cert.Hinge

/-- The array the reference sums holds, at `j`, the reference's hinge term there. -/
theorem term_apply (x0 : (⟨S33554432, .f32⟩ : BufTy).Contents (Elt Ideal)) (x1 : (⟨S33554432, .i32⟩ : BufTy).Contents (Elt Ideal))
    (j : S33554432.Idx) : val_main_v13 (F := Ideal) x0 x1 j = refTerm (x0 j) (x1 j) := by
  rw [val_main_v13_apply, val_main_v9_apply, val_main_v8_apply, val_main_c_apply, val_main_v3_apply, val_main_v2_apply,
    val_main_cst_0_apply, val_main_v1_apply, val_main_v0_apply, val_main_cst_apply, val_main_v12_apply,
    val_main_v11_apply, val_main_v10_apply, val_main_c_3_apply, val_main_v7_apply, val_main_v6_apply,
    val_main_cst_2_apply, val_main_v5_apply, val_main_v4_apply, val_main_cst_1_apply, val_main_call0_v0_apply,
    val_main_cst_4_apply]
  rfl

/-- Where every label is `+1` or `−1`, the reference's sum is the sum over all positions of the kernel's term. -/
theorem total (x0 : (⟨S33554432, .f32⟩ : BufTy).Contents (Elt Ideal)) (x1 : (⟨S33554432, .i32⟩ : BufTy).Contents (Elt Ideal))
    (hlab : ∀ j : S33554432.Idx, x1 j = 1#32 ∨ x1 j = 4294967295#32) :
    ∑ j : S33554432.Idx, val_main_v13 (F := Ideal) x0 x1 j = ∑ n : Fin 33554432, flat x0 x1 n.val := by
  rw [sum_idx1]
  refine Finset.sum_congr rfl fun n _ => ?_
  rw [term_apply, refTerm_eq_kerTerm _ _ (hlab _), flat_of_lt _ _ _ n.isLt]

end Cert.ReferenceIdeal.RefValue

end
-- ==== Proof.Bridge.lean ====
/-
  The two results are one extended real.

  Both programs end by dividing a sum by the number of positions and re-laying the quotient as a one-element
  array, the same operations on both sides; so it is enough that the two sums agree.  The reference's is zero plus
  the sum over all 2^25 positions of its hinge term; the kernel's is zero plus the sum of its [2, 1, 128] array of
  half sums.  Where every label is `+1` or `−1` both are zero plus the sum over all positions of the kernel's
  term.
-/
import proofs.«143609_j56298431316074_2_alg».proof.Proof.KernelValue
import proofs.«143609_j56298431316074_2_alg».proof.Proof.RefValue

noncomputable section

open Idealize.ShloMosaic Idealize.ShloMosaic.TcCoe Idealize.SL.Sem

namespace Cert.Bridge

open Cert.KernelIdeal Cert.KernelIdeal.Gen Cert.KernelIdeal.HalfSums

variable (m : (ℓ : Loc nD τ sig) → Buf (Elt Ideal) ℓ)

/-- The reference's sum of its terms over the kernel's argument arrays is the kernel's sum of its output array. -/
theorem sums_eq (c : Dev nD)
    (hlab : ∀ j : S33554432.Idx, m ((c : Thread nD τ).loc main_arg1) j = 1#32 ∨ m ((c : Thread nD τ).loc main_arg1) j = 4294967295#32) :
    Cert.ReferenceIdeal.Read.val_main_v14 (F := Ideal) (m ((c : Thread nD τ).loc main_arg0)) (m ((c : Thread nD τ).loc main_arg1))
      = Host.reduceAdd (F := Ideal) (halfSum m c) (constant (F := Ideal) S_ .f32 0x00000000#32) reducesTo_S2x1x128_S_d0_1_2 h_S_ := by
  funext i
  rw [Cert.ReferenceIdeal.Read.val_main_v14_apply, reduce_apply, Cert.ReferenceIdeal.RefValue.total _ _ hlab, sum_halves]
  rfl

/-- So the reference's result over the kernel's argument arrays is the kernel's result. -/
theorem result_eq (c : Dev nD)
    (hlab : ∀ j : S33554432.Idx, m ((c : Thread nD τ).loc main_arg1) j = 1#32 ∨ m ((c : Thread nD τ).loc main_arg1) j = 4294967295#32) :
    Cert.ReferenceIdeal.Read.val_main_v16 (F := Ideal) (m ((c : Thread nD τ).loc main_arg0)) (m ((c : Thread nD τ).loc main_arg1))
      = finish (halfSum m c) := by
  unfold Cert.ReferenceIdeal.Read.val_main_v16 Cert.ReferenceIdeal.Read.val_main_v15 finish
  rw [sums_eq m c hlab]
  rfl

end Cert.Bridge

end
-- ==== Proof.Labels.lean ====
/-
  What the precondition says of the labels.

  The precondition is the conjunction of two tests over the whole arrays: every score is finite, and every label
  is `+1` or `−1`.  Each test is a reduction by `and` of a pointwise test; a reduction by `and` that is `1` has every
  element `1`.  Read at one index `j`, the second test says that the label at `j` equals `1` or equals `−1` (the
  word `4294967295`), the two comparisons being against those constants broadcast over the array.
-/
import proofs.«143609_j56298431316074_2_alg».proof.Pre_finite_inputs
import Idealize.ShloMosaic.Lib.ReduceAll
import Idealize.ShloMosaic.Lib.Affine
import Idealize.ShloMosaic.Lib.ValueIdx
import Idealize.ShloMosaic.Lib.Pipeline.Value

noncomputable section

namespace Cert.Pre_finite_inputs.Labels

open Cert.Pre_finite_inputs Idealize.ShloMosaic

variable [Facts]
open Facts

/-- A rank-zero array has one index. -/
instance : Subsingleton S_.Idx := ⟨fun a b => funext fun d => d.elim0⟩

/-- Under the precondition every label is `+1` or `−1`. -/
theorem label_pm_one {F : FTy → Type} [FloatOps F] (x0 : FVec F S33554432 .f32) (x1 : IVec S33554432 32)
    (h : fn (F := F) x0 x1 = fun _ => 1#1) (j : S33554432.Idx) : x1 j = 1#32 ∨ x1 j = 4294967295#32 := by
  have h0 := congrFun h ValueIdx.ix0
  dsimp only [fn] at h0
  change IntOp.andi _ _ = 1#1 at h0
  have h9 := (IntOp.andi_eq_one.1 h0).2
  have hj := Host.reduce_andi_all _ _ _ _ ValueIdx.ix0 h9 j
  change IntOp.ori _ _ = 1#1 at hj
  have hb : ∀ w : BitVec 32, broadcastInDim S33554432 ![] bcast_S_S33554432 (constantI S_ 32 w) j = w := fun w =>
    broadcastInDim_apply _ bcast_S_S33554432 (constantI S_ 32 w) j ValueIdx.ix0 (fun a => a.elim0)
  rcases IntOp.ori_eq_one.1 hj with h1 | h1
  · left
    have e : IntOp.cmpi .eq (x1 j) (broadcastInDim S33554432 ![] bcast_S_S33554432 (constantI S_ 32 1#32) j) = 1#1 := h1
    rw [hb] at e
    exact IntOp.cmpi_eq.1 e
  · right
    have e : IntOp.cmpi .eq (x1 j) (broadcastInDim S33554432 ![] bcast_S_S33554432 (constantI S_ 32 4294967295#32) j) = 1#1 := h1
    rw [hb] at e
    exact IntOp.cmpi_eq.1 e

end Cert.Pre_finite_inputs.Labels

end
-- ==== Proof.lean ====
/-
  A hinge loss over 2^25 scores and labels: the kernel against the reference, on the extended reals.

  The reference sums, over every position, the term `min 0 (d − 1)` where the label is `+1`, `min 0 (−1 − d)` where
  it is `−1` and `0` otherwise, and divides the sum by the number of positions.  The kernel re-lays the arrays as
  [262144, 128], visits them in 32 blocks of 8192 rows — two halves of 16 blocks — and accumulates per half and per
  lane the column sums of the term `min 0 (t · d − 1)`, the label `t` read as a number; after the kernel the
  [2, 1, 128] array of half sums is summed and divided by the number of positions.

  Under the precondition — every score finite, every label `+1` or `−1` — the two terms agree at every position
  (`1 · d = d`; `(−1) · d − 1 = −1 − d` by commutativity of addition), and the kernel's sum of half sums is the sum
  over all positions, each position lying in exactly one half, lane, block and row: a re-indexing of a finite sum,
  which on the extended reals needs only that addition is commutative and associative.  The finiteness of the
  scores is not used.  The same final division and re-laying is applied to equal sums.

  The three frames are the generated frame proofs of the two kernel programs and the generated run of the
  reference; the idealization rewrote nothing, so there is nothing to preserve.
-/
import proofs.«143609_j56298431316074_2_alg».proof.Defs
import proofs.«143609_j56298431316074_2_alg».proof.Proof.Gen.Kernel
import proofs.«143609_j56298431316074_2_alg».proof.Proof.Gen.Kernel.Skeleton
import proofs.«143609_j56298431316074_2_alg».proof.Proof.Gen.Kernel.Launch
import proofs.«143609_j56298431316074_2_alg».proof.Proof.Gen.Kernel.Points
import proofs.«143609_j56298431316074_2_alg».proof.Proof.Gen.Kernel.Frame
import proofs.«143609_j56298431316074_2_alg».proof.Proof.Gen.KernelIdeal
import proofs.«143609_j56298431316074_2_alg».proof.Proof.Gen.KernelIdeal.Skeleton
import proofs.«143609_j56298431316074_2_alg».proof.Proof.Gen.KernelIdeal.Launch
import proofs.«143609_j56298431316074_2_alg».proof.Proof.Gen.KernelIdeal.Points
import proofs.«143609_j56298431316074_2_alg».proof.Proof.Gen.KernelIdeal.Frame
import proofs.«143609_j56298431316074_2_alg».proof.Proof.Gen.ReferenceIdeal
import proofs.«143609_j56298431316074_2_alg».proof.Proof.Gen.ReferenceIdeal.Run
import proofs.«143609_j56298431316074_2_alg».proof.Proof.Gen.ReferenceIdeal.Read
import proofs.«143609_j56298431316074_2_alg».proof.Proof.Gen.Pre_finite_inputs
import proofs.«143609_j56298431316074_2_alg».proof.Proof.Bridge
import proofs.«143609_j56298431316074_2_alg».proof.Proof.Labels
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same one-element result: the kernel's run
    ends at the finish of its half sums, the reference's at its own term of the same arguments, and under the
    precondition's labels the two are equal. -/
theorem algebraic : Cert.algebraic_KernelIdeal_ReferenceIdeal := by
  intro m ρ m' ρ' hpre hagree
  refine ⟨fun c => Cert.KernelIdeal.HalfSums.finish (Cert.KernelIdeal.HalfSums.halfSum m c),
    Cert.KernelIdeal.HalfSums.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2]
  exact Cert.Bridge.result_eq m c (Cert.Pre_finite_inputs.Labels.label_pm_one _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
